-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x64 : Shape := ⟨2, ![8192, 64]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1024x64 : Shape := ⟨2, ![1024, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg7 : FVec F S1024x64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S1024 .f32) (main_arg7 : FVec F S1024x64 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x64 .f32) (main_arg2 : FVec F S1024 .f32) (main_arg3 : FVec F S4096x1024 .f32) (main_arg4 : FVec F S1024x4096 .f32) (main_arg5 : FVec F S4096 .f32) (main_arg6 : FVec F S1024 .f32) (main_arg7 : FVec F S1024x64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x64 : Shape := ⟨2, ![8192, 64]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1024x64 : Shape := ⟨2, ![1024, 64]⟩
abbrev S1x1024 : Shape := ⟨2, ![1, 1024]⟩
abbrev S1x4096 : Shape := ⟨2, ![1, 4096]⟩
abbrev S512x1024 : Shape := ⟨2, ![512, 1024]⟩
abbrev S512x64 : Shape := ⟨2, ![512, 64]⟩
abbrev S2048x1024 : Shape := ⟨2, ![2048, 1024]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S1024, .f32⟩
  | .hbm, ⟨3, _⟩ => ⟨S4096x1024, .f32⟩
  | .hbm, ⟨4, _⟩ => ⟨S1024x4096, .f32⟩
  | .hbm, ⟨5, _⟩ => ⟨S4096, .f32⟩
  | .hbm, ⟨6, _⟩ => ⟨S1024, .f32⟩
  | .hbm, ⟨7, _⟩ => ⟨S1024x64, .f32⟩
  | .hbm, ⟨8, _⟩ => ⟨S4096x1024, .bf16⟩
  | .hbm, ⟨9, _⟩ => ⟨S1024x4096, .bf16⟩
  | .hbm, ⟨10, _⟩ => ⟨S1024x64, .bf16⟩
  | .hbm, ⟨11, _⟩ => ⟨S1x1024, .f32⟩
  | .hbm, ⟨12, _⟩ => ⟨S1x4096, .f32⟩
  | .hbm, ⟨13, _⟩ => ⟨S1x1024, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x64, .f32⟩
  | .local _ .vmem, ⟨3, _⟩ => ⟨S512x64, .f32⟩
  | .local _ .vmem, ⟨4, _⟩ => ⟨S1x1024, .f32⟩
  | .local _ .vmem, ⟨5, _⟩ => ⟨S4096x1024, .bf16⟩
  | .local _ .vmem, ⟨6, _⟩ => ⟨S1024x4096, .bf16⟩
  | .local _ .vmem, ⟨7, _⟩ => ⟨S1x4096, .f32⟩
  | .local _ .vmem, ⟨8, _⟩ => ⟨S1x1024, .f32⟩
  | .local _ .vmem, ⟨9, _⟩ => ⟨S1024x64, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1024_S1x1024 : S1024.ShapeCasts S1x1024
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S512x64_S512x64_0_0 : ∀ a, (![0, 0] : Fin 2 → Nat) a + S512x64.size a ≤ S512x64.size a
  h_S512x64 : 0 < S512x64.numel
  shapeCasts_S512x1024_S512x1024 : S512x1024.ShapeCasts S512x1024
  inb_S4096x1024_S2048x1024_0_0 : ∀ a, (![0, 0] : Fin 2 → Nat) a + S2048x1024.size a ≤ S4096x1024.size a
  h_S2048x1024 : 0 < S2048x1024.numel
  shapeCasts_S2048x1024_S2048x1024 : S2048x1024.ShapeCasts S2048x1024
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S512x2048 : S1x2048.Broadcasts S512x2048
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S4096x1024_S2048x1024_2048_0 : ∀ a, (![2048, 0] : Fin 2 → Nat) a + S2048x1024.size a ≤ S4096x1024.size a
  inb_S1x4096_S1x2048_0_2048 : ∀ a, (![0, 2048] : Fin 2 → Nat) a + S1x2048.size a ≤ S1x4096.size a
  inb_S1024x4096_S1024x2048_0_2048 : ∀ a, (![0, 2048] : Fin 2 → Nat) a + S1024x2048.size a ≤ S1024x4096.size a
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S2048x1024_S512x2048_1_1_0_0_n_n_wf : DotDims.WF S512x1024 S2048x1024 S512x2048 [1] [1] [0] [0] [] []
  dot_S512x2048_S1024x2048_S512x1024_1_1_0_0_n_n_wf : DotDims.WF S512x2048 S1024x2048 S512x1024 [1] [1] [0] [0] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .bf16 = 32 ∨ (Rect.block (s := S1024x64) S1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x64 : Shape := ⟨2, ![8192, 64]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1024x64 : Shape := ⟨2, ![1024, 64]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S64x1024 : Shape := ⟨2, ![64, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S1024, .f32⟩
  | .hbm, ⟨3, _⟩ => ⟨S4096x1024, .f32⟩
  | .hbm, ⟨4, _⟩ => ⟨S1024x4096, .f32⟩
  | .hbm, ⟨5, _⟩ => ⟨S4096, .f32⟩
  | .hbm, ⟨6, _⟩ => ⟨S1024, .f32⟩
  | .hbm, ⟨7, _⟩ => ⟨S1024x64, .f32⟩
  | .hbm, ⟨8, _⟩ => ⟨S1024x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S4096x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S64x1024, .f32⟩
  | .hbm, ⟨26, _⟩ => ⟨S8192x1024, .f32⟩
  | .hbm, ⟨27, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x4096_S4096x1024_1_0 : S1024x4096.Transposes [1, 0] S4096x1024
  transposes_S1024x64_S64x1024_1_0 : S1024x64.Transposes [1, 0] S64x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []
  dot_S8192x64_S64x1024_S8192x1024_1_0_0_1_n_n_wf : DotDims.WF S8192x64 S64x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf

class Facts : Prop extends Facts₀ where

variable [Facts]
-- ==== Proof.BodyTerm.lean ====
/-
  The kernel body as ONE term of its eight input blocks.

  The body works on a block of 512 rows. It keeps a running block in scratch: zero, then the contribution of hidden
  units 0..2047, then that of hidden units 2048..4095; each contribution loads one half of the resident weight blocks
  (rows of `W1`, columns of `h1` and of `W2`). Last it stores `((A · z + running) + h2) + s · Cᵀ`. `bodyTerm` is this
  chain written over the body's own payloads, at any float instance; nothing is computed here.
-/
import proofs.«136860_j87840671138025_2_alg».proof.Proof.Gen.KernelIdeal.Skeleton
import Idealize.ShloMosaic.Lib.Pipeline.FrameBody
import Idealize.ShloMosaic.Lib.ValueIdx

noncomputable section

open Idealize.ShloMosaic Idealize.ShloMosaic.ValueIdx
open scoped BigOperators

namespace Cert.KernelIdeal.Entry

open Cert.KernelIdeal Cert.KernelIdeal.Gen

/-! ## The half blocks of the resident weights -/

/-- Rows 0..2047 and rows 2048..4095 of the first weight block. -/
abbrev rW1lo : Rect S4096x1024 := Rect.unit (s := S4096x1024) ![0, 0] S2048x1024.size inb_S4096x1024_S2048x1024_0_0
abbrev rW1hi : Rect S4096x1024 := Rect.unit (s := S4096x1024) ![2048, 0] S2048x1024.size inb_S4096x1024_S2048x1024_2048_0
/-- Columns 0..2047 and columns 2048..4095 of the hidden bias row. -/
abbrev rH1lo : Rect S1x4096 := Rect.unit (s := S1x4096) ![0, 0] S1x2048.size inb_S1x4096_S1x2048_0_0
abbrev rH1hi : Rect S1x4096 := Rect.unit (s := S1x4096) ![0, 2048] S1x2048.size inb_S1x4096_S1x2048_0_2048
/-- Columns 0..2047 and columns 2048..4095 of the second weight block. -/
abbrev rW2lo : Rect S1024x4096 := Rect.unit (s := S1024x4096) ![0, 0] S1024x2048.size inb_S1024x4096_S1024x2048_0_0
abbrev rW2hi : Rect S1024x4096 := Rect.unit (s := S1024x4096) ![0, 2048] S1024x2048.size inb_S1024x4096_S1024x2048_0_2048

/-! ## The whole body as one term of its eight input blocks -/

/-- What the body stores in the output block, as the chain of its payloads: the running block zeroed, the lower half
    added, the upper half added, then the final combination. Stated at any instance: it is the term the body's run
    leaves, before any arithmetic is read. -/
def bodyTerm {F : FTy → Type} [FloatOps F] (x0 : Vec F S512x1024 .f32) (x1 : Vec F S512x64 .f32) (x2 : Vec F S1x1024 .f32)
    (x3 : Vec F S4096x1024 .bf16) (x4 : Vec F S1024x4096 .bf16) (x5 : Vec F S1x4096 .f32) (x6 : Vec F S1x1024 .f32)
    (x7 : Vec F S1024x64 .bf16) : FVec F S512x1024 .f32 :=
  k0_pay2 x0 (k0_pay4 x1) x7 x2 x6
    (k0_pay1 (k0_pay7 x0 (View.ld x3 rW1hi)) (k0_pay8 (View.ld x5 rH1hi)) (View.ld x4 rW2hi)
      (k0_pay6 x0 (View.ld x3 rW1lo) (View.ld x5 rH1lo) (View.ld x4 rW2lo) k0_pay5))

end Cert.KernelIdeal.Entry

end
-- ==== Proof.LibReadBack.lean ====
/-
  A block read back after stores the last of which covered it whole.

  When a kernel keeps a running value in a scratch block — store the whole block, load the whole block, store again —
  each load reads the value of the store just before it, whatever was stored earlier and whatever the block held at
  the start. Imports only the library.
-/
import Idealize.ShloMosaic.Lib.Pipeline.Value

noncomputable section

open Idealize.ShloMosaic

namespace Cert.ReadBack

/-- A load of the whole block (the unit-stride rectangle at zero offsets of the block's own sizes, however the zeros
    are spelt), after a list of stores whose LAST one (the head of the list) went through that same rectangle, reads
    that last store's value `w`; the earlier stores `L` are arbitrary. -/
theorem readCov_whole_last {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.ReadBack

end
-- ==== Proof.BodyRun.lean ====
/-
  What one run of the body leaves in the output block.

  The body's only store to the output block covers it whole, so the block ends holding that store's value. The value
  reads the scratch block back three times; each read-back comes after a store that covers the scratch block whole, so
  it reads that store's value (`Cert.ReadBack.readCov_whole_last`), whatever the scratch held when the body started. Hence the output
  block is `bodyTerm` of the eight input blocks — the carried scratch plays no part.
-/
import proofs.«136860_j87840671138025_2_alg».proof.Proof.Gen.KernelIdeal.Frame
import proofs.«136860_j87840671138025_2_alg».proof.Proof.BodyTerm
import proofs.«136860_j87840671138025_2_alg».proof.Proof.LibReadBack
import Idealize.ShloMosaic.Lib.Pipeline.Value
import Idealize.ShloMosaic.Lib.Tactic
import Idealize.ShloMosaic.Lib.ValueIdx

noncomputable section

open Idealize.ShloMosaic Idealize.ShloMosaic.ValueIdx
open scoped BigOperators

namespace Cert.KernelIdeal.Entry

open Cert.KernelIdeal Cert.KernelIdeal.Gen Idealize.ShloMosaic.Tactic

variable {F : FTy → Type} [FloatOps F]

theorem zero2 : (![0, 0] : Fin 2 → Nat) = fun _ => 0 := funext fun a => by fin_cases a <;> rfl

/-- The output block after the body, on any whole staging blocks holding `x0 … x7`: `bodyTerm` of them. -/
theorem out_eq (c : Dev nD) (i : grid0.Coords) (arg1 : Memref sig .tc .vmem S512x1024 .f32) (harg1 : arg1.IsWhole) (arg2 : Memref sig .tc .vmem S512x64 .f32) (harg2 : arg2.IsWhole) (arg3 : Memref sig .tc .vmem S1x1024 .f32) (harg3 : arg3.IsWhole) (arg4 : Memref sig .tc .vmem S4096x1024 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S512x1024 .f32) (harg9 : arg9.IsWhole) (arg10 : Memref sig .tc .vmem S512x1024 .f32) (harg10 : arg10.IsWhole)
    (x0 : Vec F S512x1024 .f32) (x1 : Vec F S512x64 .f32) (x2 : Vec F S1x1024 .f32) (x3 : Vec F S4096x1024 .bf16) (x4 : Vec F S1024x4096 .bf16) (x5 : Vec F S1x4096 .f32) (x6 : Vec F S1x1024 .f32) (x7 : Vec F S1024x64 .bf16) :
    out0_A_8 c i arg1 harg1 arg2 harg2 arg3 harg3 arg4 harg4 arg5 harg5 arg6 harg6 arg7 harg7 arg8 harg8 arg9 harg9 arg10 harg10 x0 x1 x2 x3 x4 x5 x6 x7 = bodyTerm x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero zero2]
  simp only [View.readAt_eq_ld, harg1.read_unread, harg2.read_unread, harg3.read_unread, harg4.read_unread,
    harg5.read_unread, harg6.read_unread, harg7.read_unread, harg8.read_unread,
    Cert.ReadBack.readCov_whole_last (S := S512x1024) _ zero2,
    View.ld_unit_zero (S := S512x1024) zero2, View.ld_unit_zero (S := S512x64) zero2,
    View.ld_unit_zero (S := S1x1024) zero2, View.ld_unit_zero (S := S1024x64) zero2]
  rfl

end Cert.KernelIdeal.Entry

end
-- ==== Proof.Spec.lean ====
/-
  One step of a piecewise-linear recurrent network, entry by entry, over the extended reals.

  For a state row `z` (1024 entries), an input row `s` (64 entries), a diagonal `A`, weights `W1` (4096 × 1024),
  `W2` (1024 × 4096), `C` (1024 × 64) and biases `h1`, `h2`, entry `j` of the next state is

      ((A j · z j  +  Σ_k max (Σ_i z i · W1 k i + h1 k) 0 · W2 j k)  +  h2 j)  +  Σ_d s d · C j d ,

  the additions grouped as written. `entry` is that number as a function of exactly the data it depends on, so that
  the same term serves a block of 512 rows and the whole array of 8192 rows. The hidden axis may be summed in two
  halves of 2048 accumulated into zero: only commutativity, associativity and `0 + x = x` of the extended reals are
  used, so no finiteness is needed (`halves`).
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Plrnn

/-- The word of `+0.0` as an extended real; the clamp of both programs is against this one word, which is never
    evaluated. -/
abbrev zeroWord : EReal := Ideal.ofBits .f32 0x00000000#32

/-- The hidden unit `k` of a row: the clamped affine form `max (Σ_i z i · W1 k i + h1 k) 0`. -/
def hiddenUnit (zr : Fin 1024 → EReal) (W1 : Fin 4096 → Fin 1024 → EReal) (h1 : Fin 4096 → EReal) (k : Fin 4096) : EReal :=
  max (∑ i : Fin 1024, zr i * W1 k i + h1 k) zeroWord

/-- Entry `j` of the next state from the row's data: `a = A j`, `zj = z j`, `w2 k = W2 j k`, `b2 = h2 j`,
    `cj d = C j d`. -/
def entry (zr : Fin 1024 → EReal) (sr : Fin 64 → EReal) (a zj : EReal) (W1 : Fin 4096 → Fin 1024 → EReal)
    (h1 : Fin 4096 → EReal) (w2 : Fin 4096 → EReal) (b2 : EReal) (cj : Fin 64 → EReal) : EReal :=
  ((a * zj + ∑ k : Fin 4096, hiddenUnit zr W1 h1 k * w2 k) + b2) + ∑ d : Fin 64, sr d * cj d

/-- The lower and the upper half of the hidden axis. -/
abbrev lo (k : Fin 2048) : Fin 4096 := ⟨k.val, by have := k.isLt; omega⟩
abbrev hi (k : Fin 2048) : Fin 4096 := ⟨2048 + k.val, by have := k.isLt; omega⟩

/-- A sum over the 4096 hidden units is the sum over the lower 2048 accumulated into zero, plus the sum over the
    upper 2048. -/
theorem halves (f : Fin 4096 → EReal) :
    (0 + ∑ k : Fin 2048, f (lo k)) + ∑ k : Fin 2048, f (hi k) = ∑ k : Fin 4096, f k := by
  rw [zero_add]
  have h := Fin.sum_univ_add (a := 2048) (b := 2048) (f := fun k : Fin (2048 + 2048) => f ⟨k.val, k.isLt⟩)
  refine Eq.trans ?_ h.symm
  rfl

/-- The same with the halves given as separate tables: the lower and the upper half of the first weights' rows (`Wlo`,
    `Whi`), of the hidden bias (`blo`, `bhi`) and of the second weights' row (`vlo`, `vhi`). -/
theorem halves_tables (zr : Fin 1024 → EReal) (Wlo Whi : Fin 2048 → Fin 1024 → EReal) (blo bhi vlo vhi : Fin 2048 → EReal)
    (W1 : Fin 4096 → Fin 1024 → EReal) (h1 w2 : Fin 4096 → EReal)
    (e1 : ∀ k i, Wlo k i = W1 (lo k) i) (e2 : ∀ k i, Whi k i = W1 (hi k) i) (e3 : ∀ k, blo k = h1 (lo k))
    (e4 : ∀ k, bhi k = h1 (hi k)) (e5 : ∀ k, vlo k = w2 (lo k)) (e6 : ∀ k, vhi k = w2 (hi k)) :
    (0 + ∑ k : Fin 2048, max (∑ i : Fin 1024, zr i * Wlo k i + blo k) zeroWord * vlo k)
        + ∑ k : Fin 2048, max (∑ i : Fin 1024, zr i * Whi k i + bhi k) zeroWord * vhi k
      = ∑ k : Fin 4096, hiddenUnit zr W1 h1 k * w2 k := by
  simp only [e1, e2, e3, e4, e5, e6]
  exact halves (fun k => hiddenUnit zr W1 h1 k * w2 k)

/-- The whole next state over the 8192 rows, from the eight argument arrays. -/
def step (z : (⟨2, ![8192, 1024]⟩ : Shape).Idx → EReal) (s : (⟨2, ![8192, 64]⟩ : Shape).Idx → EReal)
    (A : (⟨1, ![1024]⟩ : Shape).Idx → EReal) (W1 : (⟨2, ![4096, 1024]⟩ : Shape).Idx → EReal)
    (W2 : (⟨2, ![1024, 4096]⟩ : Shape).Idx → EReal) (h1 : (⟨1, ![4096]⟩ : Shape).Idx → EReal)
    (h2 : (⟨1, ![1024]⟩ : Shape).Idx → EReal) (C : (⟨2, ![1024, 64]⟩ : Shape).Idx → EReal)
    (r : Fin 8192) (j : Fin 1024) : EReal :=
  entry (fun i => z (ix2 r i)) (fun d => s (ix2 r d)) (A (ix1 j)) (z (ix2 r j)) (fun k i => W1 (ix2 k i))
    (fun k => h1 (ix1 k)) (fun k => W2 (ix2 j k)) (h2 (ix1 j)) (fun d => C (ix2 j d))

end Cert.Plrnn

end
-- ==== Proof.BlockEntry.lean ====
/-
  The kernel body's arithmetic on one block of 512 rows, read entry by entry at the exact instance.

  The body keeps a running block `acc` in scratch: it stores zero, adds the lower half's contribution
  `relu (z · W1[0:2048]ᵀ + h1[0:2048]) · W2[:, 0:2048]ᵀ`, adds the upper half's, and then stores
  `((A · z + acc) + h2) + s · Cᵀ`. `bodyTerm` is that chain of the body's payloads over the eight input blocks,
  each partial load a rectangle of the whole weight block. Read at row `p`, column `q` every product against a zero
  accumulator is a finite sum over the contracted column index (both operands are contracted along their second
  axis), a change of float format is the identity, a one-row block broadcast over the rows reads its one row, and the
  two half sums accumulated into zero are the one sum over the 4096 hidden units: `body_apply` says the entry is
  `Cert.Plrnn.entry` of row `p` of the z and s blocks and the weights' rows.
-/
import proofs.«136860_j87840671138025_2_alg».proof.Proof.BodyTerm
import proofs.«136860_j87840671138025_2_alg».proof.Proof.Spec
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

open Idealize.ShloMosaic Idealize.ShloMosaic.ValueIdx
open scoped BigOperators

namespace Cert.KernelIdeal.Entry

open Cert.KernelIdeal Cert.KernelIdeal.Gen Cert.Plrnn

/-! ## The three contractions: rows of the left operand against rows of the right operand -/

/-- `z · W1[half]ᵀ`: [512, 1024] against [2048, 1024]. -/
abbrev D1 := dot_S512x1024_S2048x1024_S512x2048_1_1_0_0_n_n
/-- `hidden · W2[:, half]ᵀ`: [512, 2048] against [1024, 2048]. -/
abbrev D2 := dot_S512x2048_S1024x2048_S512x1024_1_1_0_0_n_n
/-- `s · Cᵀ`: [512, 64] against [1024, 64]. -/
abbrev D3 := dot_S512x64_S1024x64_S512x1024_1_1_0_0_n_n

/-! For each of them: at output entry `j` and contraction position `q`, the left operand is read at `(j 0, q)` and the
    right operand at `(j 1, q)`. -/

theorem D1_l0 (j : S512x2048.Idx) (q : D1.contr.Idx) : (D1.lhsIdx j q 0).val = (j 0).val := by
  unfold DotDims.lhsIdx
  rw [dif_neg (show ¬(0 : Fin S512x1024.rank) ∈ D1.lhsBatch by decide), dif_pos (show (0 : Fin S512x1024.rank) ∈ D1.lhsNonContracting by decide)]
  rfl
theorem D1_l1 (j : S512x2048.Idx) (q : D1.contr.Idx) : (D1.lhsIdx j q 1).val = (q ⟨0, by decide⟩).val :=
  D1.lhsIdx_val_of_single rfl j q
theorem D1_r0 (j : S512x2048.Idx) (q : D1.contr.Idx) : (D1.rhsIdx j q 0).val = (j 1).val := by
  unfold DotDims.rhsIdx
  rw [dif_neg (show ¬(0 : Fin S2048x1024.rank) ∈ D1.rhsBatch by decide), dif_pos (show (0 : Fin S2048x1024.rank) ∈ D1.rhsNonContracting by decide)]
  rfl
theorem D1_r1 (j : S512x2048.Idx) (q : D1.contr.Idx) : (D1.rhsIdx j q 1).val = (q ⟨0, by decide⟩).val :=
  D1.rhsIdx_val_of_single rfl j q

theorem D2_l0 (j : S512x1024.Idx) (q : D2.contr.Idx) : (D2.lhsIdx j q 0).val = (j 0).val := by
  unfold DotDims.lhsIdx
  rw [dif_neg (show ¬(0 : Fin S512x2048.rank) ∈ D2.lhsBatch by decide), dif_pos (show (0 : Fin S512x2048.rank) ∈ D2.lhsNonContracting by decide)]
  rfl
theorem D2_l1 (j : S512x1024.Idx) (q : D2.contr.Idx) : (D2.lhsIdx j q 1).val = (q ⟨0, by decide⟩).val :=
  D2.lhsIdx_val_of_single rfl j q
theorem D2_r0 (j : S512x1024.Idx) (q : D2.contr.Idx) : (D2.rhsIdx j q 0).val = (j 1).val := by
  unfold DotDims.rhsIdx
  rw [dif_neg (show ¬(0 : Fin S1024x2048.rank) ∈ D2.rhsBatch by decide), dif_pos (show (0 : Fin S1024x2048.rank) ∈ D2.rhsNonContracting by decide)]
  rfl
theorem D2_r1 (j : S512x1024.Idx) (q : D2.contr.Idx) : (D2.rhsIdx j q 1).val = (q ⟨0, by decide⟩).val :=
  D2.rhsIdx_val_of_single rfl j q

theorem D3_l0 (j : S512x1024.Idx) (q : D3.contr.Idx) : (D3.lhsIdx j q 0).val = (j 0).val := by
  unfold DotDims.lhsIdx
  rw [dif_neg (show ¬(0 : Fin S512x64.rank) ∈ D3.lhsBatch by decide), dif_pos (show (0 : Fin S512x64.rank) ∈ D3.lhsNonContracting by decide)]
  rfl
theorem D3_l1 (j : S512x1024.Idx) (q : D3.contr.Idx) : (D3.lhsIdx j q 1).val = (q ⟨0, by decide⟩).val :=
  D3.lhsIdx_val_of_single rfl j q
theorem D3_r0 (j : S512x1024.Idx) (q : D3.contr.Idx) : (D3.rhsIdx j q 0).val = (j 1).val := by
  unfold DotDims.rhsIdx
  rw [dif_neg (show ¬(0 : Fin S1024x64.rank) ∈ D3.rhsBatch by decide), dif_pos (show (0 : Fin S1024x64.rank) ∈ D3.rhsNonContracting by decide)]
  rfl
theorem D3_r1 (j : S512x1024.Idx) (q : D3.contr.Idx) : (D3.rhsIdx j q 1).val = (q ⟨0, by decide⟩).val :=
  D3.rhsIdx_val_of_single rfl j q

/-- Entry (p, q) of `l · rᵀ` into zero is `Σ_i l p i · r q i`, `i` over the 1024 state columns. -/
theorem mm1 (l : FVec Ideal S512x1024 .bf16) (r : FVec Ideal S2048x1024 .bf16) (p : Fin 512) (q : Fin 2048) :
    matmul D1 none l r (constant (F := Ideal) S512x2048 .f32 0x00000000#32) (ix2 p q)
      = ∑ i : Fin 1024, l (ix2 p i) * r (ix2 q i) := by
  simp only [matmul]
  rw [Ideal.matmul_constant_zero_apply, ← Equiv.sum_comp (contrEquiv1 D1 1024 rfl rfl).symm]
  refine Finset.sum_congr rfl fun i _ => ?_
  have hk := contrEquiv1_symm_val D1 1024 rfl rfl i
  have el : D1.lhsIdx (ix2 p q) ((contrEquiv1 D1 1024 rfl rfl).symm i) = ix2 p i := funext fun a => Fin.ext (by
    match a with
    | ⟨0, _⟩ => exact D1_l0 _ _
    | ⟨1, _⟩ => exact (D1_l1 _ _).trans hk)
  have er : D1.rhsIdx (ix2 p q) ((contrEquiv1 D1 1024 rfl rfl).symm i) = ix2 q i := funext fun a => Fin.ext (by
    match a with
    | ⟨0, _⟩ => exact D1_r0 _ _
    | ⟨1, _⟩ => exact (D1_r1 _ _).trans hk)
  rw [el, er]

/-- Entry (p, q) of `l · rᵀ` into zero is `Σ_k l p k · r q k`, `k` over one half of the hidden units. -/
theorem mm2 (l : FVec Ideal S512x2048 .bf16) (r : FVec Ideal S1024x2048 .bf16) (p : Fin 512) (q : Fin 1024) :
    matmul D2 none l r (constant (F := Ideal) S512x1024 .f32 0x00000000#32) (ix2 p q)
      = ∑ i : Fin 2048, l (ix2 p i) * r (ix2 q i) := by
  simp only [matmul]
  rw [Ideal.matmul_constant_zero_apply, ← Equiv.sum_comp (contrEquiv1 D2 2048 rfl rfl).symm]
  refine Finset.sum_congr rfl fun i _ => ?_
  have hk := contrEquiv1_symm_val D2 2048 rfl rfl i
  have el : D2.lhsIdx (ix2 p q) ((contrEquiv1 D2 2048 rfl rfl).symm i) = ix2 p i := funext fun a => Fin.ext (by
    match a with
    | ⟨0, _⟩ => exact D2_l0 _ _
    | ⟨1, _⟩ => exact (D2_l1 _ _).trans hk)
  have er : D2.rhsIdx (ix2 p q) ((contrEquiv1 D2 2048 rfl rfl).symm i) = ix2 q i := funext fun a => Fin.ext (by
    match a with
    | ⟨0, _⟩ => exact D2_r0 _ _
    | ⟨1, _⟩ => exact (D2_r1 _ _).trans hk)
  rw [el, er]

/-- Entry (p, q) of `l · rᵀ` into zero is `Σ_d l p d · r q d`, `d` over the 64 input columns. -/
theorem mm3 (l : FVec Ideal S512x64 .bf16) (r : FVec Ideal S1024x64 .bf16) (p : Fin 512) (q : Fin 1024) :
    matmul D3 none l r (constant (F := Ideal) S512x1024 .f32 0x00000000#32) (ix2 p q)
      = ∑ i : Fin 64, l (ix2 p i) * r (ix2 q i) := by
  simp only [matmul]
  rw [Ideal.matmul_constant_zero_apply, ← Equiv.sum_comp (contrEquiv1 D3 64 rfl rfl).symm]
  refine Finset.sum_congr rfl fun i _ => ?_
  have hk := contrEquiv1_symm_val D3 64 rfl rfl i
  have el : D3.lhsIdx (ix2 p q) ((contrEquiv1 D3 64 rfl rfl).symm i) = ix2 p i := funext fun a => Fin.ext (by
    match a with
    | ⟨0, _⟩ => exact D3_l0 _ _
    | ⟨1, _⟩ => exact (D3_l1 _ _).trans hk)
  have er : D3.rhsIdx (ix2 p q) ((contrEquiv1 D3 64 rfl rfl).symm i) = ix2 q i := funext fun a => Fin.ext (by
    match a with
    | ⟨0, _⟩ => exact D3_r0 _ _
    | ⟨1, _⟩ => exact (D3_r1 _ _).trans hk)
  rw [el, er]

/-! ## The body's payloads at an entry -/

/-- The first half-product `z · W1[half]ᵀ` at (p, k). -/
theorem pay7_apply (v0 : Vec Ideal S512x1024 .f32) (v26 : Vec Ideal S2048x1024 .bf16) (p : Fin 512) (k : Fin 2048) :
    k0_pay7 v0 v26 (ix2 p k) = ∑ i : Fin 1024, v0 (ix2 p i) * v26 (ix2 k i) := by
  unfold k0_pay7 k0_pay3
  simp only [shapeCast_self]
  exact mm1 _ _ p k

/-- A half of the hidden bias broadcast over the rows reads its one row. -/
theorem pay8_apply (v29 : Vec Ideal S1x2048 .f32) (p : Fin 512) (k : Fin 2048) :
    k0_pay8 v29 (ix2 p k) = v29 (ix2 (0 : Fin 1) k) := by
  unfold k0_pay8
  simp only [shapeCast_self]
  exact broadcastTo_1b_ab_apply _ _ p k

/-- The running block starts at zero. -/
theorem pay5_apply (i : S512x1024.Idx) : k0_pay5 (F := Ideal) i = 0 := by
  unfold k0_pay5
  simp only [shapeCast_self]
  exact Ideal.ofBits_zero_f32

/-- The running block after the lower half: what it held plus `Σ_k relu (z · W1ᵀ + h1) p k · W2 q k`. -/
theorem pay6_apply (v0 : Vec Ideal S512x1024 .f32) (v8 : Vec Ideal S2048x1024 .bf16) (v11 : Vec Ideal S1x2048 .f32)
    (v18 : Vec Ideal S1024x2048 .bf16) (v20 : Vec Ideal S512x1024 .f32) (p : Fin 512) (q : Fin 1024) :
    k0_pay6 v0 v8 v11 v18 v20 (ix2 p q)
      = v20 (ix2 p q) + ∑ k : Fin 2048, max (∑ i : Fin 1024, v0 (ix2 p i) * v8 (ix2 k i) + v11 (ix2 (0 : Fin 1) k)) zeroWord
          * v18 (ix2 q k) := by
  unfold k0_pay6 k0_pay3
  simp only [shapeCast_self]
  refine congrArg (v20 (ix2 p q) + ·) ?_
  refine (mm2 _ _ p q).trans ?_
  refine Finset.sum_congr rfl fun k _ => ?_
  refine congrArg (· * v18 (ix2 q k)) ?_
  exact congrArg₂ (fun a b : EReal => max (a + b) zeroWord) (mm1 _ _ p k) (broadcastTo_1b_ab_apply _ _ p k)

/-- The running block after the upper half, from the half-product and the broadcast bias already formed. -/
theorem pay1_apply (v28 v31 : FVec Ideal S512x2048 .f32) (v36 : Vec Ideal S1024x2048 .bf16) (v38 : Vec Ideal S512x1024 .f32)
    (p : Fin 512) (q : Fin 1024) :
    k0_pay1 v28 v31 v36 v38 (ix2 p q)
      = v38 (ix2 p q) + ∑ k : Fin 2048, max (v28 (ix2 p k) + v31 (ix2 p k)) zeroWord * v36 (ix2 q k) := by
  unfold k0_pay1
  simp only [shapeCast_self]
  refine congrArg (v38 (ix2 p q) + ·) ?_
  exact mm2 _ _ p q

/-- The stored block: `((A · z + acc) + h2) + s · Cᵀ` at (p, q). -/
theorem pay2_apply (v0 : Vec Ideal S512x1024 .f32) (v3 : FVec Ideal S512x64 .bf16) (v44 : Vec Ideal S1024x64 .bf16)
    (v47 v49 : Vec Ideal S1x1024 .f32) (v53 : Vec Ideal S512x1024 .f32) (p : Fin 512) (q : Fin 1024) :
    k0_pay2 v0 v3 v44 v47 v49 v53 (ix2 p q)
      = ((v47 (ix2 (0 : Fin 1) q) * v0 (ix2 p q) + v53 (ix2 p q)) + v49 (ix2 (0 : Fin 1) q))
          + ∑ d : Fin 64, v3 (ix2 p d) * v44 (ix2 q d) := by
  unfold k0_pay2
  simp only [shapeCast_self]
  exact congrArg₂ (fun a b : EReal => a + b)
    (congrArg₂ (fun a b : EReal => (a * v0 (ix2 p q) + v53 (ix2 p q)) + b)
      (broadcastTo_1b_ab_apply _ _ p q) (broadcastTo_1b_ab_apply _ _ p q))
    (mm3 _ _ p q)

/-! ## The half blocks of the resident weights, read at an entry

Row (or column) `k` of a lower half is row `k` of the whole block, and of an upper half row `2048 + k`. -/

theorem ld_W1lo (X : Vec Ideal S4096x1024 .bf16) (k : Fin 2048) (i : Fin 1024) :
    (View.ld X rW1lo : Vec Ideal S2048x1024 .bf16) (ix2 k i) = X (ix2 (lo k) i) := by
  refine congrArg X (funext fun a => Fin.ext ?_)
  match a with
  | ⟨0, _⟩ => show 0 + 1 * k.val = k.val; omega
  | ⟨1, _⟩ => show 0 + 1 * i.val = i.val; omega
theorem ld_W1hi (X : Vec Ideal S4096x1024 .bf16) (k : Fin 2048) (i : Fin 1024) :
    (View.ld X rW1hi : Vec Ideal S2048x1024 .bf16) (ix2 k i) = X (ix2 (hi k) i) := by
  refine congrArg X (funext fun a => Fin.ext ?_)
  match a with
  | ⟨0, _⟩ => show 2048 + 1 * k.val = 2048 + k.val; omega
  | ⟨1, _⟩ => show 0 + 1 * i.val = i.val; omega
theorem ld_H1lo (X : Vec Ideal S1x4096 .f32) (u : Fin 1) (k : Fin 2048) :
    (View.ld X rH1lo : Vec Ideal S1x2048 .f32) (ix2 u k) = X (ix2 u (lo k)) := by
  refine congrArg X (funext fun a => Fin.ext ?_)
  match a with
  | ⟨0, _⟩ => show 0 + 1 * u.val = u.val; omega
  | ⟨1, _⟩ => show 0 + 1 * k.val = k.val; omega
theorem ld_H1hi (X : Vec Ideal S1x4096 .f32) (u : Fin 1) (k : Fin 2048) :
    (View.ld X rH1hi : Vec Ideal S1x2048 .f32) (ix2 u k) = X (ix2 u (hi k)) := by
  refine congrArg X (funext fun a => Fin.ext ?_)
  match a with
  | ⟨0, _⟩ => show 0 + 1 * u.val = u.val; omega
  | ⟨1, _⟩ => show 2048 + 1 * k.val = 2048 + k.val; omega
theorem ld_W2lo (X : Vec Ideal S1024x4096 .bf16) (q : Fin 1024) (k : Fin 2048) :
    (View.ld X rW2lo : Vec Ideal S1024x2048 .bf16) (ix2 q k) = X (ix2 q (lo k)) := by
  refine congrArg X (funext fun a => Fin.ext ?_)
  match a with
  | ⟨0, _⟩ => show 0 + 1 * q.val = q.val; omega
  | ⟨1, _⟩ => show 0 + 1 * k.val = k.val; omega
theorem ld_W2hi (X : Vec Ideal S1024x4096 .bf16) (q : Fin 1024) (k : Fin 2048) :
    (View.ld X rW2hi : Vec Ideal S1024x2048 .bf16) (ix2 q k) = X (ix2 q (hi k)) := by
  refine congrArg X (funext fun a => Fin.ext ?_)
  match a with
  | ⟨0, _⟩ => show 0 + 1 * q.val = q.val; omega
  | ⟨1, _⟩ => show 2048 + 1 * k.val = 2048 + k.val; omega

/-! ## The stored block at an entry -/

/-- Entry (p, q) of the stored block is the network step's entry for row `p` of the z and s blocks against the
    resident weights: the two half sums accumulated into zero are the one sum over the hidden units. -/
theorem body_apply (x0 : Vec Ideal S512x1024 .f32) (x1 : Vec Ideal S512x64 .f32) (x2 : Vec Ideal S1x1024 .f32)
    (x3 : Vec Ideal S4096x1024 .bf16) (x4 : Vec Ideal S1024x4096 .bf16) (x5 : Vec Ideal S1x4096 .f32)
    (x6 : Vec Ideal S1x1024 .f32) (x7 : Vec Ideal S1024x64 .bf16) (p : Fin 512) (q : Fin 1024) :
    bodyTerm x0 x1 x2 x3 x4 x5 x6 x7 (ix2 p q)
      = entry (fun i => x0 (ix2 p i)) (fun d => x1 (ix2 p d)) (x2 (ix2 (0 : Fin 1) q)) (x0 (ix2 p q))
          (fun k i => x3 (ix2 k i)) (fun k => x5 (ix2 (0 : Fin 1) k)) (fun k => x4 (ix2 q k)) (x6 (ix2 (0 : Fin 1) q))
          (fun d => x7 (ix2 q d)) := by
  unfold bodyTerm
  rw [pay2_apply, pay1_apply, pay6_apply, pay5_apply]
  simp only [pay7_apply, pay8_apply]
  unfold entry
  refine congrArg₂ (fun a b : EReal => a + b)
    (congrArg (fun a : EReal => a + x6 (ix2 (0 : Fin 1) q))
      (congrArg (fun a : EReal => x2 (ix2 (0 : Fin 1) q) * x0 (ix2 p q) + a) ?_)) rfl
  exact halves_tables (fun i => x0 (ix2 p i))
    (fun k i => (View.ld x3 rW1lo : Vec Ideal S2048x1024 .bf16) (ix2 k i))
    (fun k i => (View.ld x3 rW1hi : Vec Ideal S2048x1024 .bf16) (ix2 k i))
    (fun k => (View.ld x5 rH1lo : Vec Ideal S1x2048 .f32) (ix2 (0 : Fin 1) k))
    (fun k => (View.ld x5 rH1hi : Vec Ideal S1x2048 .f32) (ix2 (0 : Fin 1) k))
    (fun k => (View.ld x4 rW2lo : Vec Ideal S1024x2048 .bf16) (ix2 q k))
    (fun k => (View.ld x4 rW2hi : Vec Ideal S1024x2048 .bf16) (ix2 q k))
    (fun k i => x3 (ix2 k i)) (fun k => x5 (ix2 (0 : Fin 1) k)) (fun k => x4 (ix2 q k))
    (ld_W1lo x3) (ld_W1hi x3) (ld_H1lo x5 0) (ld_H1hi x5 0) (ld_W2lo x4 q) (ld_W2hi x4 q)

end Cert.KernelIdeal.Entry

end
-- ==== Proof.ArrayValue.lean ====
/-
  The kernel's result array after the run is the network step of its eight argument arrays.

  The grid has 16 points; point `t` works on rows `512 t … 512 t + 511`: it is handed block `t` of `z` and of `s`, and
  the whole of the six resident arrays — `A`, `h1`, `h2` recast as one-row matrices and the three weight matrices
  after a change of float format, all done on the host before the launch — and it writes back block `t` of the
  result. At the exact instance the change of format is the identity and a vector recast as a one-row matrix reads
  the vector, so what point `t` writes back at row `p`, column `q` is the step's entry at row `512 t + p`, column
  `q` of the argument arrays themselves (`flushed_eq`). The 16 blocks cover the 8192 rows (row `r` lies in block
  `r / 512`), hence the whole array is the step (`final`), and the frame run re-stated with it is `run`.
-/
import proofs.«136860_j87840671138025_2_alg».proof.Proof.Gen.KernelIdeal.Value
import proofs.«136860_j87840671138025_2_alg».proof.Proof.BodyRun
import proofs.«136860_j87840671138025_2_alg».proof.Proof.BlockEntry
import proofs.«136860_j87840671138025_2_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.ValueIdx
open scoped BigOperators

namespace Cert.KernelIdeal.Step

open Cert.KernelIdeal Cert.KernelIdeal.Gen Cert.KernelIdeal.Entry Cert.Plrnn
open Idealize.ShloMosaic.TcCoe Idealize.SL.Sem
open Idealize.ShloMosaic.Pipeline (Dat)

variable (m : (ℓ : Loc nD τ sig) → Buf (Elt Ideal) ℓ) (ρ : Dev nD → PrngReg)

/-- The step of the argument arrays, as contents of the result array. -/
def result (c : Dev nD) : Buf (Elt Ideal) ((c : Thread nD τ).loc main_v6) := fun i =>
  step (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-! ## What the host prepared before the launch -/

theorem V_W1 (c : Dev nD) :
    V m c main_v0 = (truncf .bf16 (m ((c : Thread nD τ).loc main_arg3)) bitsLt_bf16_f32 : FVec Ideal S4096x1024 .bf16) := by
  dsimp only [V, hostOps0]; after_results <;> rfl
theorem V_W2 (c : Dev nD) :
    V m c main_v1 = (truncf .bf16 (m ((c : Thread nD τ).loc main_arg4)) bitsLt_bf16_f32 : FVec Ideal S1024x4096 .bf16) := by
  dsimp only [V, hostOps0]; after_results <;> rfl
theorem V_C (c : Dev nD) :
    V m c main_v2 = (truncf .bf16 (m ((c : Thread nD τ).loc main_arg7)) bitsLt_bf16_f32 : FVec Ideal S1024x64 .bf16) := by
  dsimp only [V, hostOps0]; after_results <;> rfl
theorem V_A (c : Dev nD) :
    (V m c main_v3 : S1x1024.Idx → EReal) = shapeCast S1x1024 (m ((c : Thread nD τ).loc main_arg2)) shapeCasts_S1024_S1x1024 := by
  dsimp only [V, hostOps0]; after_results; rfl
theorem V_h1 (c : Dev nD) :
    (V m c main_v4 : S1x4096.Idx → EReal) = shapeCast S1x4096 (m ((c : Thread nD τ).loc main_arg5)) shapeCasts_S4096_S1x4096 := by
  dsimp only [V, hostOps0]; after_results; rfl
theorem V_h2 (c : Dev nD) :
    (V m c main_v5 : S1x1024.Idx → EReal) = shapeCast S1x1024 (m ((c : Thread nD τ).loc main_arg6)) shapeCasts_S1024_S1x1024 := by
  dsimp only [V, hostOps0]; after_results; rfl

/-! ## Where each window's block sits -/

/-- The block index of every window at every point: the two row-blocked inputs and the output move with the point,
    the six resident blocks stay at the origin. Decided over the 16 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## Each input block, read at an entry, is the argument array at the evident index -/

theorem blk_z (c : Dev nD) (t : Fin cfg0.N) (p : Fin 512) (i : Fin 1024) (r : Fin 8192) (hr : r.val = t.val * 512 + p.val) :
    (iblk m c 0 t : Vec Ideal S512x1024 .f32) (ix2 p i) = (m ((c : Thread nD τ).loc main_arg0)) (ix2 r i) := by
  obtain ⟨e0, e1, -⟩ := idx_facts t
  show V m c main_arg0 (((cfg0.win 0).blk t).view.emb (ix2 p i)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * i.val = i.val; omega

theorem blk_s (c : Dev nD) (t : Fin cfg0.N) (p : Fin 512) (d : Fin 64) (r : Fin 8192) (hr : r.val = t.val * 512 + p.val) :
    (iblk m c 1 t : Vec Ideal S512x64 .f32) (ix2 p d) = (m ((c : Thread nD τ).loc main_arg1)) (ix2 r d) := by
  obtain ⟨-, -, e0, e1, -⟩ := idx_facts t
  show V m c main_arg1 (((cfg0.win 1).blk t).view.emb (ix2 p d)) = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 64 + 1 * d.val = d.val; omega

theorem blk_A (c : Dev nD) (t : Fin cfg0.N) (q : Fin 1024) :
    (iblk m c 2 t : Vec Ideal S1x1024 .f32) (ix2 (0 : Fin 1) q) = (m ((c : Thread nD τ).loc main_arg2)) (ix1 q) := by
  obtain ⟨-, -, -, -, e0, e1, -⟩ := idx_facts t
  show V m c main_v3 (((cfg0.win 2).blk t).view.emb (ix2 (0 : Fin 1) q)) = _
  rw [V_A]
  refine Eq.trans (congrArg _ (funext fun a => Fin.ext ?_)) (shapeCast_a_1a_apply _ _ (0 : Fin 1) q)
  match a with
  | ⟨0, _⟩ => show win0_2.index t (0 : Fin 2) * 1 + 1 * 0 = 0; omega
  | ⟨1, _⟩ => show win0_2.index t (1 : Fin 2) * 1024 + 1 * q.val = q.val; omega

theorem blk_W1 (c : Dev nD) (t : Fin cfg0.N) (k : Fin 4096) (i : Fin 1024) :
    (iblk m c 3 t : Vec Ideal S4096x1024 .bf16) (ix2 k i) = (m ((c : Thread nD τ).loc main_arg3)) (ix2 k i) := by
  obtain ⟨-, -, -, -, -, -, e0, e1, -⟩ := idx_facts t
  show V m c main_v0 (((cfg0.win 3).blk t).view.emb (ix2 k i)) = _
  rw [V_W1]
  show (m ((c : Thread nD τ).loc main_arg3)) _ = _
  refine congrArg _ (funext fun a => Fin.ext ?_)
  match a with
  | ⟨0, _⟩ => show win0_3.index t (0 : Fin 2) * 4096 + 1 * k.val = k.val; omega
  | ⟨1, _⟩ => show win0_3.index t (1 : Fin 2) * 1024 + 1 * i.val = i.val; omega

theorem blk_W2 (c : Dev nD) (t : Fin cfg0.N) (q : Fin 1024) (k : Fin 4096) :
    (iblk m c 4 t : Vec Ideal S1024x4096 .bf16) (ix2 q k) = (m ((c : Thread nD τ).loc main_arg4)) (ix2 q k) := by
  obtain ⟨-, -, -, -, -, -, -, -, e0, e1, -⟩ := idx_facts t
  show V m c main_v1 (((cfg0.win 4).blk t).view.emb (ix2 q k)) = _
  rw [V_W2]
  show (m ((c : Thread nD τ).loc main_arg4)) _ = _
  refine congrArg _ (funext fun a => Fin.ext ?_)
  match a with
  | ⟨0, _⟩ => show win0_4.index t (0 : Fin 2) * 1024 + 1 * q.val = q.val; omega
  | ⟨1, _⟩ => show win0_4.index t (1 : Fin 2) * 4096 + 1 * k.val = k.val; omega

theorem blk_h1 (c : Dev nD) (t : Fin cfg0.N) (k : Fin 4096) :
    (iblk m c 5 t : Vec Ideal S1x4096 .f32) (ix2 (0 : Fin 1) k) = (m ((c : Thread nD τ).loc main_arg5)) (ix1 k) := by
  obtain ⟨-, -, -, -, -, -, -, -, -, -, e0, e1, -⟩ := idx_facts t
  show V m c main_v4 (((cfg0.win 5).blk t).view.emb (ix2 (0 : Fin 1) k)) = _
  rw [V_h1]
  refine Eq.trans (congrArg _ (funext fun a => Fin.ext ?_)) (shapeCast_a_1a_apply _ _ (0 : Fin 1) k)
  match a with
  | ⟨0, _⟩ => show win0_5.index t (0 : Fin 2) * 1 + 1 * 0 = 0; omega
  | ⟨1, _⟩ => show win0_5.index t (1 : Fin 2) * 4096 + 1 * k.val = k.val; omega

theorem blk_h2 (c : Dev nD) (t : Fin cfg0.N) (q : Fin 1024) :
    (iblk m c 6 t : Vec Ideal S1x1024 .f32) (ix2 (0 : Fin 1) q) = (m ((c : Thread nD τ).loc main_arg6)) (ix1 q) := by
  obtain ⟨-, -, -, -, -, -, -, -, -, -, -, -, e0, e1, -⟩ := idx_facts t
  show V m c main_v5 (((cfg0.win 6).blk t).view.emb (ix2 (0 : Fin 1) q)) = _
  rw [V_h2]
  refine Eq.trans (congrArg _ (funext fun a => Fin.ext ?_)) (shapeCast_a_1a_apply _ _ (0 : Fin 1) q)
  match a with
  | ⟨0, _⟩ => show win0_6.index t (0 : Fin 2) * 1 + 1 * 0 = 0; omega
  | ⟨1, _⟩ => show win0_6.index t (1 : Fin 2) * 1024 + 1 * q.val = q.val; omega

theorem blk_C (c : Dev nD) (t : Fin cfg0.N) (q : Fin 1024) (d : Fin 64) :
    (iblk m c 7 t : Vec Ideal S1024x64 .bf16) (ix2 q d) = (m ((c : Thread nD τ).loc main_arg7)) (ix2 q d) := by
  obtain ⟨-, -, -, -, -, -, -, -, -, -, -, -, -, -, e0, e1, -⟩ := idx_facts t
  show V m c main_v2 (((cfg0.win 7).blk t).view.emb (ix2 q d)) = _
  rw [V_C]
  show (m ((c : Thread nD τ).loc main_arg7)) _ = _
  refine congrArg _ (funext fun a => Fin.ext ?_)
  match a with
  | ⟨0, _⟩ => show win0_7.index t (0 : Fin 2) * 1024 + 1 * q.val = q.val; omega
  | ⟨1, _⟩ => show win0_7.index t (1 : Fin 2) * 64 + 1 * d.val = d.val; omega

/-! ## What a point writes back -/

/-- Entry (p, q) of block `t` of the result array sits at row `512 t + p`, column `q`. -/
theorem out_emb (t : Fin cfg0.N) (p : Fin 512) (q : Fin 1024) (r : Fin 8192) (hr : r.val = t.val * 512 + p.val) :
    ((cfg0.win 8).blk t).view.emb (ix2 p q) = ix2 r q := by
  obtain ⟨-, -, -, -, -, -, -, -, -, -, -, -, -, -, -, -, e0, e1⟩ := idx_facts t
  refine funext fun a => Fin.ext ?_
  match a with
  | ⟨0, _⟩ => show win0_8.index t (0 : Fin 2) * 512 + 1 * p.val = r.val; omega
  | ⟨1, _⟩ => show win0_8.index t (1 : Fin 2) * 1024 + 1 * q.val = q.val; omega

/-- What point `t` writes back is block `t` of the step of the argument arrays. -/
theorem flushed_eq (c : Dev nD) (t : Fin cfg0.N) :
    (dats m 0 c).flushed 8 t = ((cfg0.win 8).blk t).view.read (Elt Ideal) (result m c) := by
  rw [Value.flushed8_A, out_eq]
  funext j
  obtain ⟨p, q, rfl⟩ : ∃ (p : Fin 512) (q : Fin 1024), j = ix2 p q := ⟨j 0, j 1, eq_ix2 j⟩
  have ht : t.val < 16 := lt_of_lt_of_eq t.isLt (show cfg0.N = 16 from N_0)
  have hr : (⟨t.val * 512 + p.val, by omega⟩ : Fin 8192).val = t.val * 512 + p.val := rfl
  show bodyTerm (iblk m c 0 t) (iblk m c 1 t) (iblk m c 2 t) (iblk m c 3 t) (iblk m c 4 t) (iblk m c 5 t) (iblk m c 6 t)
      (iblk m c 7 t) (ix2 p q) = result m c (((cfg0.win 8).blk t).view.emb (ix2 p q))
  rw [out_emb t p q _ hr]
  refine (body_apply _ _ _ _ _ _ _ _ p q).trans ?_
  show _ = step _ _ _ _ _ _ _ _ _ _
  unfold step
  simp only [blk_z m c t p _ _ hr, blk_s m c t p _ _ hr, blk_A m c t, blk_W1 m c t, blk_W2 m c t, blk_h1 m c t,
    blk_h2 m c t, blk_C m c t]
  rfl

/-! ## The blocks cover the array -/

/-- An index of the result array is in point `t`'s block iff each coordinate is in the block's range on its axis. -/
theorem mem_blk (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v6).slice (win0_8.rect t)).set ↔ _
  rw [View.set_slice_whole, Rect.mem_set_unit]
  exact Iff.rfl

/-- Row `r` lies in the block of point `r / 512`, which writes back. -/
theorem cover (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  have htN : (i 0).val / 512 < cfg0.N := by rw [hN]; omega
  obtain ⟨-, -, -, -, -, -, -, -, -, -, -, -, -, -, -, -, e0, e1⟩ := idx_facts ⟨(i 0).val / 512, htN⟩
  have e0' : win0_8.index ⟨(i 0).val / 512, htN⟩ (0 : Fin 2) = (i 0).val / 512 := e0
  refine ⟨⟨(i 0).val / 512, htN⟩, flush0_8 _, ?_⟩
  rw [mem_blk]
  intro a
  match a with
  | ⟨0, _⟩ =>
    show win0_8.index ⟨(i 0).val / 512, htN⟩ (0 : Fin 2) * 512 ≤ (i 0).val
      ∧ (i 0).val < win0_8.index ⟨(i 0).val / 512, htN⟩ (0 : Fin 2) * 512 + 512
    omega
  | ⟨1, _⟩ =>
    show win0_8.index ⟨(i 0).val / 512, htN⟩ (1 : Fin 2) * 1024 ≤ (i 1).val
      ∧ (i 1).val < win0_8.index ⟨(i 0).val / 512, htN⟩ (1 : Fin 2) * 1024 + 1024
    omega

/-! ## The array after the run, and the run -/

/-- The result array after the run is the step of the argument arrays. -/
theorem final (c : Dev nD) : (dats m 0 c).arrAt 8 cfg0.N = result m c :=
  (dats m 0 c).arrAt_eq_of_cover 8 (result m c) (fun t _ => flushed_eq m c t) cover

/-- The kernel's run: every weakly fair execution ends with the result array at the step of the arguments and the
    arguments as launched. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Step

end
-- ==== Proof.RefStep.lean ====
/-
  The reference program's result is the network step, entry by entry.

  The reference forms `z · W1ᵀ` and `relu(…) · W2ᵀ` and `s · Cᵀ` as whole products after transposing the weights, and
  broadcasts the three vectors `A`, `h1`, `h2` over the rows. Read at row `r`, column `j`, each product is the sum over
  its contracted index of the operands at the evident coordinates, a transposed weight read at (a, b) is the weight at
  (b, a), and a broadcast vector read at (r, j) is the vector at `j`: the generated read-at-an-index lemmas say this
  one operation at a time, and the coordinate maps they compose are named here with plain pairs.
-/
import proofs.«136860_j87840671138025_2_alg».proof.Proof.Gen.ReferenceIdeal.Read
import proofs.«136860_j87840671138025_2_alg».proof.Proof.Spec
import Idealize.ShloMosaic.Lib.ValueIdx

noncomputable section

open Idealize.ShloMosaic Idealize.ShloMosaic.ValueIdx
open scoped BigOperators

namespace Cert.ReferenceIdeal.Step

open Cert.ReferenceIdeal Cert.ReferenceIdeal.Read Cert.Plrnn

variable (r : Fin 8192) (j : Fin 1024)

/-! ## The composed coordinate maps are pairs -/

theorem eA : idx_main_v6 (idx_main_v7 (ix2 r j)) = ix1 j :=
  funext fun a => Fin.ext (by match a with | ⟨0, _⟩ => rfl)
theorem eH2 : idx_main_v12 (idx_main_v13 (ix2 r j)) = ix1 j :=
  funext fun a => Fin.ext (by match a with | ⟨0, _⟩ => rfl)
theorem eZrow (k : Fin 4096) (a : Fin 1024) : lidx_main_v1 (lidx_main_v10 (ix2 r j) k) a = ix2 r a :=
  funext fun b => Fin.ext (by match b with | ⟨0, _⟩ => rfl | ⟨1, _⟩ => rfl)
theorem eW1 (k : Fin 4096) (a : Fin 1024) : idx_main_v0 (ridx_main_v1 (lidx_main_v10 (ix2 r j) k) a) = ix2 k a :=
  funext fun b => Fin.ext (by match b with | ⟨0, _⟩ => rfl | ⟨1, _⟩ => rfl)
theorem eH1 (k : Fin 4096) : idx_main_v2 (idx_main_v3 (lidx_main_v10 (ix2 r j) k)) = ix1 k :=
  funext fun b => Fin.ext (by match b with | ⟨0, _⟩ => rfl)
theorem eW2 (k : Fin 4096) : idx_main_v9 (ridx_main_v10 (ix2 r j) k) = ix2 j k :=
  funext fun b => Fin.ext (by match b with | ⟨0, _⟩ => rfl | ⟨1, _⟩ => rfl)
theorem eSrow (d : Fin 64) : lidx_main_v16 (ix2 r j) d = ix2 r d :=
  funext fun b => Fin.ext (by match b with | ⟨0, _⟩ => rfl | ⟨1, _⟩ => rfl)
theorem eC (d : Fin 64) : idx_main_v15 (ridx_main_v16 (ix2 r j) d) = ix2 j d :=
  funext fun b => Fin.ext (by match b with | ⟨0, _⟩ => rfl | ⟨1, _⟩ => rfl)

/-- The reference's last stage at (r, j) is the step's entry there. -/
theorem ref_apply (x0 : (⟨S8192x1024, .f32⟩ : BufTy).Contents (Elt Ideal)) (x1 : (⟨S8192x64, .f32⟩ : BufTy).Contents (Elt Ideal))
    (x2 : (⟨S1024, .f32⟩ : BufTy).Contents (Elt Ideal)) (x3 : (⟨S4096x1024, .f32⟩ : BufTy).Contents (Elt Ideal))
    (x4 : (⟨S1024x4096, .f32⟩ : BufTy).Contents (Elt Ideal)) (x5 : (⟨S4096, .f32⟩ : BufTy).Contents (Elt Ideal))
    (x6 : (⟨S1024, .f32⟩ : BufTy).Contents (Elt Ideal)) (x7 : (⟨S1024x64, .f32⟩ : BufTy).Contents (Elt Ideal)) :
    val_main_v17 (F := Ideal) x0 x1 x2 x3 x4 x5 x6 x7 (ix2 r j) = step x0 x1 x2 x3 x4 x5 x6 x7 r j := by
  rw [val_main_v17_apply, val_main_v14_apply, val_main_v11_apply, val_main_v8_apply, val_main_v7_apply,
    val_main_v6_apply, val_main_v10_apply, val_main_v13_apply, val_main_v12_apply, val_main_v16_apply]
  simp only [val_main_v5_apply, val_main_v4_apply, val_main_v1_apply, val_main_v0_apply, val_main_v3_apply,
    val_main_v2_apply, val_main_call0_v0_apply, val_main_call0_cst_apply, val_main_v9_apply, val_main_v15_apply,
    eA, eH2, eZrow, eW1, eH1, eW2, eSrow, eC]
  rfl

/-- So the reference's result array is the step at every index. -/
theorem ref_eq (x0 : (⟨S8192x1024, .f32⟩ : BufTy).Contents (Elt Ideal)) (x1 : (⟨S8192x64, .f32⟩ : BufTy).Contents (Elt Ideal))
    (x2 : (⟨S1024, .f32⟩ : BufTy).Contents (Elt Ideal)) (x3 : (⟨S4096x1024, .f32⟩ : BufTy).Contents (Elt Ideal))
    (x4 : (⟨S1024x4096, .f32⟩ : BufTy).Contents (Elt Ideal)) (x5 : (⟨S4096, .f32⟩ : BufTy).Contents (Elt Ideal))
    (x6 : (⟨S1024, .f32⟩ : BufTy).Contents (Elt Ideal)) (x7 : (⟨S1024x64, .f32⟩ : BufTy).Contents (Elt Ideal)) :
    val_main_v17 (F := Ideal) x0 x1 x2 x3 x4 x5 x6 x7 = fun i => step x0 x1 x2 x3 x4 x5 x6 x7 (i 0) (i 1) := by
  funext i
  obtain ⟨r, j, rfl⟩ : ∃ (r : Fin 8192) (j : Fin 1024), i = ix2 r j := ⟨i 0, i 1, eq_ix2 i⟩
  exact ref_apply r j x0 x1 x2 x3 x4 x5 x6 x7

end Cert.ReferenceIdeal.Step

end
-- ==== Proof.lean ====
/-
  One step of a piecewise-linear recurrent network, `z' = A ⊙ z + relu (z · W1ᵀ + h1) · W2ᵀ + h2 + s · Cᵀ`, computed by a
  kernel that walks the 8192 rows in 16 blocks of 512 and sums the 4096 hidden units in two halves of 2048, against
  the same formula written with whole matrix products.

  Over the extended reals the two programs compute one function of the eight argument arrays, `Cert.Plrnn.step`:
  entry (r, j) is `((A j · z r j + Σ_k max (Σ_i z r i · W1 k i + h1 k) 0 · W2 j k) + h2 j) + Σ_d s r d · C j d`.
    • The kernel: one run of its body leaves in the output block a fixed term of the eight input blocks
      (`Entry.out_eq`; the scratch block is zeroed before it is read, so what it carried does not matter); that term at
      an entry is the step's entry for that row (`Entry.body_apply`: the products are finite sums, a change of float
      format is the identity, the two half sums accumulated into zero are the one sum — associativity and
      commutativity of addition and `0 + x = x`, no finiteness); the blocks the 16 points write back cover the
      array (`Step.final`, `Step.run`).
    • The reference: its run's term, read one operation at a time, is the same step (`ReferenceIdeal.Step.ref_eq`).
  The precondition (finite inputs) is not used: the equality holds at the infinities too. Nothing was rewritten
  between the kernel as printed and its idealization, so that conjunct is `True`. The three frames are the runs
  with the result forgotten.
-/
import proofs.«136860_j87840671138025_2_alg».proof.Defs
import proofs.«136860_j87840671138025_2_alg».proof.Proof.Gen.Kernel
import proofs.«136860_j87840671138025_2_alg».proof.Proof.Gen.Kernel.Skeleton
import proofs.«136860_j87840671138025_2_alg».proof.Proof.Gen.Kernel.Launch
import proofs.«136860_j87840671138025_2_alg».proof.Proof.Gen.Kernel.Points
import proofs.«136860_j87840671138025_2_alg».proof.Proof.Gen.Kernel.Frame
import proofs.«136860_j87840671138025_2_alg».proof.Proof.Gen.KernelIdeal
import proofs.«136860_j87840671138025_2_alg».proof.Proof.Gen.KernelIdeal.Skeleton
import proofs.«136860_j87840671138025_2_alg».proof.Proof.Gen.KernelIdeal.Launch
import proofs.«136860_j87840671138025_2_alg».proof.Proof.Gen.KernelIdeal.Points
import proofs.«136860_j87840671138025_2_alg».proof.Proof.Gen.KernelIdeal.Frame
import proofs.«136860_j87840671138025_2_alg».proof.Proof.Gen.ReferenceIdeal
import proofs.«136860_j87840671138025_2_alg».proof.Proof.Gen.Pre_finite_inputs
import proofs.«136860_j87840671138025_2_alg».proof.Proof.Gen.KernelIdeal.Value
import proofs.«136860_j87840671138025_2_alg».proof.Proof.Gen.ReferenceIdeal.Run
import proofs.«136860_j87840671138025_2_alg».proof.Proof.Gen.ReferenceIdeal.Read
import proofs.«136860_j87840671138025_2_alg».proof.Proof.ArrayValue
import proofs.«136860_j87840671138025_2_alg».proof.Proof.RefStep
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the step of the (agreeing) argument arrays in their result arrays. -/
theorem algebraic : Cert.algebraic_KernelIdeal_ReferenceIdeal := by
  intro m ρ m' ρ' _ hagree
  refine ⟨fun c => Cert.KernelIdeal.Step.result m c, Cert.KernelIdeal.Step.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.ReferenceIdeal.Step.ref_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
